-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_cst_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_cst_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_cst_13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S1024x512 : Shape := ⟨2, ![1024, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S65536x512 .f32) (main_arg1 : FVec F S1024x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S65536x512 : Shape := ⟨2, ![65536, 512]⟩
abbrev S1024x512 : Shape := ⟨2, ![1024, 512]⟩
abbrev S1x1 : Shape := ⟨2, ![1, 1]⟩
abbrev S1024 : Shape := ⟨1, ![1024]⟩
abbrev S1024x1 : Shape := ⟨2, ![1024, 1]⟩
abbrev S1024x1024 : Shape := ⟨2, ![1024, 1024]⟩
abbrev S1 : Shape := ⟨1, ![1]⟩
abbrev S_ : Shape := ⟨0, ![]⟩

abbrev nBuf : Space → Nat
  | .hbm => 7
  | .vmem => 4
  | .smem => 0
  | _ => 0

abbrev bufTy : (tb : Table) → Fin (tcTables nBuf tb) → BufTy
  | .hbm, ⟨0, _⟩ => ⟨S65536x512, .f32⟩
  | .hbm, ⟨1, _⟩ => ⟨S1024x512, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  reduces_S1024x1024_S1024 : S1024x1024.Reduces [1] S1024
  broadcasts_S1024x1_S1024x1024 : S1024x1.Broadcasts S1024x1024
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S1024x512 : Shape := ⟨2, ![1024, 512]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1024x1 : Shape := ⟨2, ![1024, 1]⟩
abbrev S65536x1024 : Shape := ⟨2, ![65536, 1024]⟩

abbrev nBuf : Space → Nat
  | .hbm => 61
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S1024x512, .f32⟩
  | .hbm, ⟨2, _⟩ => ⟨S65536x512, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S65536x512, .f32⟩
  | .hbm, ⟨11, _⟩ => ⟨S65536x512, .f32⟩
  | .hbm, ⟨12, _⟩ => ⟨S1024x512, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x512, .f32⟩
  | .hbm, ⟨21, _⟩ => ⟨S1024x512, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S_, .f32⟩
  | .hbm, ⟨26, _⟩ => ⟨S65536, .f32⟩
  | .hbm, ⟨27, _⟩ => ⟨S65536, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S65536x1024, .f32⟩
  | .hbm, ⟨36, _⟩ => ⟨S65536x1024, .f32⟩
  | .hbm, ⟨37, _⟩ => ⟨S_, .f32⟩
  | .hbm, ⟨38, _⟩ => ⟨S65536x1024, .f32⟩
  | .hbm, ⟨39, _⟩ => ⟨S65536x1024, .i1⟩
  | .hbm, ⟨40, _⟩ => ⟨S_, .f32⟩
  | .hbm, ⟨41, _⟩ => ⟨S_, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536x1024, .f32⟩
  | .hbm, ⟨46, _⟩ => ⟨S65536x1024, .i1⟩
  | .hbm, ⟨47, _⟩ => ⟨S_, .f32⟩
  | .hbm, ⟨48, _⟩ => ⟨S_, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S65536x1024, .f32⟩
  | .hbm, ⟨53, _⟩ => ⟨S_, .f32⟩
  | .hbm, ⟨54, _⟩ => ⟨S65536, .f32⟩
  | .hbm, ⟨55, _⟩ => ⟨S65536, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_call0_v0 : Ref sig .tc := ⟨.hbm, 41, rfl⟩
abbrev main_call0_v1 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_call1_v0 : Ref sig .tc := ⟨.hbm, 48, rfl⟩
abbrev main_call1_v1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_cst_13 : Ref sig .tc := ⟨.hbm, 60, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  reducesTo_S65536x1024_S65536_d1 : S65536x1024.ReducesTo [1] S65536
  bcast_S_S65536 : S_.BroadcastsInDim S65536 (![] : Fin 0 → Fin S65536.rank)
  bcast_S65536x1_S65536x1024_0_1 : S65536x1.BroadcastsInDim S65536x1024 (![0, 1] : Fin 2 → Fin S65536x1024.rank)
  bcast_S_S65536x1024 : S_.BroadcastsInDim S65536x1024 (![] : Fin 0 → Fin S65536x1024.rank)
  reducesTo_S65536_S_d0 : S65536.ReducesTo [0] S_
  dot_S65536x512_S1024x512_S65536x1024_1_1_0_0_n_n_wf : DotDims.WF S65536x512 S1024x512 S65536x1024 [1] [1] [0] [0] [] []

variable [Facts₀]

def dot_S65536x512_S1024x512_S65536x1024_1_1_0_0_n_n : DotDims S65536x512 S1024x512 S65536x1024 where
  lhsContracting := [1]
  rhsContracting := [1]
  lhsNonContracting := [0]
  rhsNonContracting := [0]
  lhsBatch := []
  rhsBatch := []
  wf := dot_S65536x512_S1024x512_S65536x1024_1_1_0_0_n_n_wf

class Facts : Prop extends Facts₀ where

variable [Facts]
-- ==== Proof.BodyLeaves.lean ====
/-
  What one run of the kernel's body leaves in the total's buffer, and what its two input blocks are.

  At the first grid point the body stores zero in the one-entry total, reads it back and stores the total plus the
  tile's contribution; at every later point it reads the total the point before left and stores it plus the tile's
  contribution. The contribution is computed from the two loaded blocks: block `t` of `x` is rows `1024 t` to
  `1024 t + 1023`, the block of `m` is all of `m` at every point.
-/
import proofs.«171843_j46119358825081_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Leaves

open Cert.KernelIdeal Cert.KernelIdeal.Gen

variable {F : FTy → Type} [FloatOps F]
variable (m : (ℓ : Loc nD τ sig) → Buf (Elt F) ℓ)

theorem hz : (![0, 0] : Fin 2 → Nat) = fun _ => 0 := funext fun a => by fin_cases a <;> rfl

/-- A later point: the total `xo` the point before left, plus the contribution of the blocks `x0`, `x1`. -/
theorem out_later (c : Dev nD) (i : grid0.Coords) (a1 : Memref sig .tc .vmem S1024x512 .f32) (h1 : a1.IsWhole)
    (a2 : Memref sig .tc .vmem S1024x512 .f32) (h2 : a2.IsWhole) (a3 : Memref sig .tc .vmem S1x1 .f32) (h3 : a3.IsWhole)
    (hc : ¬cond0_0 i) (x0 x1 : Vec F S1024x512 .f32) (xo : Vec F S1x1 .f32) :
    out0_B_2 c i a1 h1 a2 h2 a3 h3 hc x0 x1 xo = k0_pay1 (k0_pay3 x0 x1) xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S1024x512) hz,
    View.ld_unit_zero (S := S1x1) hz]

/-- The first point: the zero just stored, plus the contribution of the blocks. -/
theorem out_first (c : Dev nD) (i : grid0.Coords) (a1 : Memref sig .tc .vmem S1024x512 .f32) (h1 : a1.IsWhole)
    (a2 : Memref sig .tc .vmem S1024x512 .f32) (h2 : a2.IsWhole) (a3 : Memref sig .tc .vmem S1x1 .f32) (h3 : a3.IsWhole)
    (hc : cond0_0 i) (x0 x1 : Vec F S1024x512 .f32) :
    out0_A_2 c i a1 h1 a2 h2 a3 h3 hc x0 x1 = k0_pay1 (k0_pay3 x0 x1) (k0_pay2 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1024x512) hz]

/-- The block index of `x`'s window at point `t` is `(t, 0)`; `m`'s is `(0, 0)` at every point. -/
theorem idx_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_m : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Entry `(p, k)` of block `t` of `x` is entry `(1024 t + p, k)` of `x`. -/
theorem blk_x (c : Dev nD) (t : Fin cfg0.N) (p : Fin 1024) (k : Fin 512) (hr : 1024 * t.val + p.val < 65536) :
    (iblk m c 0 t : Vec F S1024x512 .f32) (ix2 p k)
      = m ((c : Thread nD τ).loc main_arg0) (ix2 ⟨1024 * t.val + p.val, hr⟩ k) := by
  have hi := idx_x t
  unfold iblk
  rw [View.read_apply]
  show V m c main_arg0 _ = m (c.tc.loc main_arg0) _
  rw [V_main_arg0]
  refine congrArg _ (funext fun a => Fin.ext ?_)
  match a with
  | ⟨0, _⟩ => show win0_0.index t 0 * 1024 + 1 * p.val = 1024 * t.val + p.val; rw [hi.1]; omega
  | ⟨1, _⟩ => show win0_0.index t 1 * 512 + 1 * k.val = k.val; rw [hi.2]; omega

/-- The block of `m` is `m`. -/
theorem blk_m (c : Dev nD) (t : Fin cfg0.N) (j : Fin 1024) (k : Fin 512) :
    (iblk m c 1 t : Vec F S1024x512 .f32) (ix2 j k) = m ((c : Thread nD τ).loc main_arg1) (ix2 j k) := by
  have hi := idx_m t
  unfold iblk
  rw [View.read_apply]
  show V m c main_arg1 _ = m (c.tc.loc main_arg1) _
  rw [V_main_arg1]
  refine congrArg _ (funext fun a => Fin.ext ?_)
  match a with
  | ⟨0, _⟩ => show win0_1.index t 0 * 1024 + 1 * j.val = j.val; rw [hi.1]; omega
  | ⟨1, _⟩ => show win0_1.index t 1 * 512 + 1 * k.val = k.val; rw [hi.2]; omega

end Cert.KernelIdeal.Leaves

end
-- ==== Proof.WrittenBack.lean ====
/-
  From the total's buffer to the program's results.

  The one-entry total is written back to its array once, after the last grid point, and that block is the whole
  array; so the array ends holding what the body left at point 63. The host then views the array as a scalar and
  divides it by the row count; the third result is the constant zero.
-/
import proofs.«171843_j46119358825081_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Written

open Cert.KernelIdeal Cert.KernelIdeal.Gen

variable {F : FTy → Type} [FloatOps F]
variable (m : (ℓ : Loc nD τ sig) → Buf (Elt F) ℓ) (ρ : Dev nD → PrngReg)

/-- The last grid point. -/
abbrev last : Fin cfg0.N := ⟨63, by decide⟩

/-- What the body leaves in the total's buffer at the last point. -/
abbrev total (c : Dev nD) : Buf (Elt F) ((c : Thread nD τ).loc main_v0) := outsAt0 m c 63 (by decide)

/-- The one write-back, at the last point, writes it: the block at `(0, 0)` of a `[1, 1]` array is the array. -/
theorem flushed_eq (c : Dev nD) (t : Fin cfg0.N) (hf : (cfg0.win 2).flush t = true) :
    (dats m 0 c).flushed 2 t = ((cfg0.win 2).blk t).view.read (Elt F) (total m c) := by
  have hN : cfg0.N = 64 := N_0
  have h3 : t.val = 63 := by have := (flush0_2 t).mp hf; have := t.isLt; omega
  obtain rfl : t = last := Fin.ext h3
  show (cfg0.win 2).cut (grid0.coords last) ((dats m 0 c).after 2 last) = _
  rw [after0_2]
  have hz' : (fun a => win0_2.index last a * main_v0.ty.shape.size a) = fun _ => 0 := funext fun a => by fin_cases a <;> decide
  exact (Memref.read_access_unit_zero (Elt F) main_v0 hz' (fun a => by rw [congrFun hz' a]; simp) (total m c)).symm

/-- So the array of the total ends holding what the body left at the last point. -/
theorem final (c : Dev nD) : (dats m 0 c).arrAt 2 cfg0.N = total m c :=
  (dats m 0 c).arrAt_eq_of_cover 2 (total m c) (flushed_eq m c) fun i =>
    ⟨last, (flush0_2 last).mpr rfl, by
      show i ∈ ((View.whole main_v0).slice (win0_2.rect last)).set
      rw [View.set_slice_whole, Rect.mem_set_unit]
      intro a
      have h0 : (i 0 : Nat) < 1 := (i 0).isLt
      have h1 : (i 1 : Nat) < 1 := (i 1).isLt
      match a with
      | ⟨0, _⟩ => show win0_2.index last 0 * win0_2.size 0 ≤ (i 0 : Nat) ∧ (i 0 : Nat) < win0_2.index last 0 * win0_2.size 0 + win0_2.xsize (grid0.coords last) 0
                  rw [show win0_2.index last 0 * win0_2.size 0 = 0 from by decide +kernel, show win0_2.xsize (grid0.coords last) 0 = 1 from by decide +kernel]; omega
      | ⟨1, _⟩ => show win0_2.index last 1 * win0_2.size 1 ≤ (i 1 : Nat) ∧ (i 1 : Nat) < win0_2.index last 1 * win0_2.size 1 + win0_2.xsize (grid0.coords last) 1
                  rw [show win0_2.index last 1 * win0_2.size 1 = 0 from by decide +kernel, show win0_2.xsize (grid0.coords last) 1 = 1 from by decide +kernel]; omega⟩

/-- The first two results: the total, viewed as a scalar, over the row count. -/
theorem tail_mean (c : Dev nD) :
    Pipeline.afterTail₀ cfgs (dats m) 0 (V0 m) [hostOps1] c main_v2
      = Host.divf (shapeCast S_ (total m c) Facts₀.shapeCasts_S1x1_S_) (constant S_ .f32 0x47800000#32) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v0) = total m c :=
    (Pipeline.withArrays_arr spec0 launch0.win.arr_inj c _ _ 2).trans (final m c)
  refine congrArg (fun z => Host.divf z (constant S_ .f32 0x47800000#32)) (funext fun i => ?_)
  show shapeCast S_ (Pipeline.withArrays (cfgs 0).spec c (V0 m c) (fun w => (dats m 0 c).arrAt w (cfgs 0).N) (Proc.tc.devRef main_v0)) Facts₀.shapeCasts_S1x1_S_ i = _
  rw [e]

/-- The third result: the constant zero. -/
theorem tail_zero (c : Dev nD) :
    Pipeline.afterTail₀ cfgs (dats m) 0 (V0 m) [hostOps1] c main_cst_0 = constant S_ .f32 0x00000000#32 := by
  unfold Pipeline.afterTail₀
  show StableHlo.after hostOps1 _ (Proc.devRef .tc main_cst_0) = _
  after_results

theorem mem_mean : main_v2 ∈ Pipeline.restRefs sig cfg0.spec := by decide
theorem mem_zero : main_cst_0 ∈ Pipeline.restRefs sig cfg0.spec := by decide

/-- The program's run, read: the results as above, the arguments unchanged. -/
theorem run : θ_run defs (onTc (τ := τ) (main (F := F))) ⟨m, fun _ => 0, ρ⟩ fun r => ∀ c : Dev nD,
      r.2.mem ((c : Thread nD τ).loc main_v2)
        = Host.divf (shapeCast S_ (total m c) Facts₀.shapeCasts_S1x1_S_) (constant S_ .f32 0x47800000#32)
      ∧ r.2.mem ((c : Thread nD τ).loc main_cst_0) = constant S_ .f32 0x00000000#32
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v2 mem_mean).trans (tail_mean m c), ((h c).2 main_cst_0 mem_zero).trans (tail_zero m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Written

end
-- ==== Proof.RowEntropy.lean ====
/-
  The mathematics both programs compute, over the extended reals, with no program in sight.

  For a row `x` of 512 numbers and a matrix `M` of 1024 rows of 512 numbers:
    * `unit v`      : `v` divided, entry by entry, by `max (sqrt (∑ v k * v k)) ε`;
    * `logit x M j`  : the inner product of `unit x` and `unit (M j)` (the cosine of the two rows);
    * `soft y j`     : `exp (y j - max y) / ∑ exp (y j' - max y)`, the maximum taken as a fold of `max` from `-∞`;
    * `clamp p`      : `p` replaced by the small constant when `p ≤ 0`, then by one when `≥ 1`;
    * `rowEntropy`   : `- ∑ j, q j * log (q j)` with `q = clamp ∘ soft (logit x M)`.
  The result of both programs is the sum of `rowEntropy` over all 65536 rows, divided by 65536; the kernel forms the
  sum tile by tile (64 tiles of 1024 rows), which is the same sum because addition of extended reals is commutative
  and associative (`sum_tiles`).
-/
import Idealize.ShloMosaic.PureOps.Ideal
import Idealize.ShloMosaic.PureOps.Ideal.Laws
import Idealize.ShloMosaic.Lib.ValueIdx
import Mathlib.Data.Finset.Fold

noncomputable section

namespace Cert.MeanEntropy

open Idealize.ShloMosaic

/-- The five float literals the two programs share, as the extended reals they denote. -/
abbrev zero : EReal := Ideal.ofBits .f32 0x00000000#32
abbrev eps : EReal := Ideal.ofBits .f32 0x2B8CBCCC#32
abbrev tiny : EReal := Ideal.ofBits .f32 0x24E69595#32
abbrev one : EReal := Ideal.ofBits .f32 0x3F800000#32
abbrev ninf : EReal := Ideal.ofBits .f32 0xFF800000#32
abbrev count : EReal := Ideal.ofBits .f32 0x47800000#32

/-- A row divided by its clamped Euclidean norm. -/
def unit {n : ℕ} (v : Fin n → EReal) (k : Fin n) : EReal :=
  Ideal.div (v k) (max (Ideal.sqrt (∑ k', v k' * v k')) eps)

/-- The inner product of the normalised row with normalised row `j` of the matrix. -/
def logit {n K : ℕ} (x : Fin n → EReal) (M : Fin K → Fin n → EReal) (j : Fin K) : EReal :=
  ∑ k, unit x k * unit (M j) k

/-- The largest entry, as a fold of `max` from `-∞`. -/
def top {K : ℕ} (y : Fin K → EReal) : EReal := (Finset.univ : Finset (Fin K)).fold max ninf y

/-- The softmax of a row of logits. -/
def soft {K : ℕ} (y : Fin K → EReal) (j : Fin K) : EReal :=
  Ideal.div (Ideal.exp (y j - top y)) (∑ j', Ideal.exp (y j' - top y))

/-- A probability pushed into the open unit interval as both programs do it. -/
def clamp (p : EReal) : EReal :=
  Scalar.select (Ideal.cmp .oge (Scalar.select (Ideal.cmp .ole p zero) tiny p) one) one
    (Scalar.select (Ideal.cmp .ole p zero) tiny p)

/-- The clamped probabilities of one row. -/
def prob {n K : ℕ} (x : Fin n → EReal) (M : Fin K → Fin n → EReal) (j : Fin K) : EReal :=
  clamp (soft (logit x M) j)

/-- The entropy of one row's clamped probabilities. -/
def rowEntropy {n K : ℕ} (x : Fin n → EReal) (M : Fin K → Fin n → EReal) : EReal :=
  -(∑ j, prob x M j * Ideal.log (prob x M j))

/-- The mean over the 65536 rows of `X` of the rows' entropies against `M`: the sum, from the zero literal, divided by
    the row count. -/
def meanEntropy (X : Fin 65536 → Fin 512 → EReal) (M : Fin 1024 → Fin 512 → EReal) : EReal :=
  Ideal.div (zero + ∑ r : Fin 65536, rowEntropy (X r) M) count

/-- The maximum from `-∞` taken once more against `-∞` is itself: the fold already dominates its start. -/
theorem max_ninf_top {K : ℕ} (y : Fin K → EReal) : max ninf (top y) = top y :=
  max_eq_right ((Finset.le_fold_max _).mpr (Or.inl le_rfl))

/-- The zero literal is the extended real zero. -/
theorem zero_eq : zero = 0 := Ideal.ofBits_zero_f32

/-- A sum over 65536 rows is the sum over 64 tiles of the sums over each tile's 1024 rows: addition of extended
    reals is commutative and associative, so no finiteness is needed. -/
theorem sum_tiles (f : Fin 65536 → EReal) :
    ∑ r : Fin 65536, f r
      = ∑ t : Fin 64, ∑ p : Fin 1024, f ⟨1024 * t.val + p.val, by have := t.isLt; have := p.isLt; omega⟩ := by
  rw [← Fintype.sum_prod_type' (f := fun (t : Fin 64) (p : Fin 1024) =>
    f ⟨1024 * t.val + p.val, by have := t.isLt; have := p.isLt; omega⟩)]
  refine (Equiv.sum_comp (finProdFinEquiv (m := 64) (n := 1024)) f).symm.trans ?_
  refine Finset.sum_congr rfl fun x _ => congrArg f (Fin.ext ?_)
  show x.2.val + 1024 * x.1.val = 1024 * x.1.val + x.2.val
  omega

end Cert.MeanEntropy

end
-- ==== Proof.Keepdims.lean ====
/-
  Column vectors and row reductions read at an index.

  A reduction along the last axis of an `[a, b]` array is, at row `p`, a sum (or a fold of `max`) over the `b` entries
  of that row; the result, a vector of length `a`, viewed as a column `[a, 1]` holds at `(p, 0)` what the vector holds at
  `p`; the column broadcast back to `[a, b]` holds at `(p, c)` what the column holds at `(p, 0)`. A reduction of a
  column `[a, 1]` along its first axis is the sum of its `a` entries.
-/
import Idealize.ShloMosaic.Lib.Pipeline.Value
import Idealize.ShloMosaic.Lib.ValueIdx
import Idealize.ShloMosaic.PureOps.Ideal.Laws

noncomputable section

namespace Cert.MeanEntropy

open Idealize.ShloMosaic Idealize.ShloMosaic.ValueIdx

variable {α : Type}

/-- A vector of length `a` viewed as a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the entry `k` of the reduced axis put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- Entry `u` of the reduced column with the row `k` put back is `(k, u)`. -/
theorem lift_col {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

/-- The sum along the last axis, at row `p`: the sum of that row's entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_row h p k)

/-- The maximum along the last axis, at row `p`: the fold of `max` from the start value over that row's entries. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (fun f => Finset.fold max (Ideal.ofBits φ acc) f (Finset.univ : Finset (Fin b)))
    (funext fun k => congrArg src (lift_row h p k))

/-- The sum of a column along its first axis: the sum of its entries. -/
theorem colSum_apply {a : ℕ} {φ : FTy} (src : FVec Ideal ⟨2, ![a, 1]⟩ φ) (acc : BitVec φ.bits)
    (h : (⟨2, ![a, 1]⟩ : Shape).Reduces [0] (⟨1, ![1]⟩ : Shape)) (hφ : FKind.Formats φ)
    (hacc : acc = FKind.add.neutral φ hφ) (u : Fin 1) :
    multiReduction .add [0] ⟨1, ![1]⟩ src acc h hφ hacc (ix1 u) = ∑ p : Fin a, src (ix2 p u) := by
  refine (Ideal.multiReduction_add_single src acc h hφ hacc (ix1 u)).trans ?_
  exact Finset.sum_congr rfl fun k _ => congrArg src (lift_col h u k)

end Cert.MeanEntropy

end
-- ==== Proof.TilePayload.lean ====
/-
  What the kernel's body computes from one tile, read entry by entry at the extended reals.

  The body loads a tile of 1024 rows of `x` and the whole matrix `m`, normalises the rows of both, multiplies them
  (row `p` of the tile against every row of `m`), takes the softmax of every row of products, clamps it, and adds to the
  running total the sum over the tile's rows of minus the row's `∑ q log q`. Each stage is named here after what it
  does and read at an index; the body's two payloads are these stages composed.
-/
import proofs.«171843_j46119358825081_1_alg».proof.Proof.Gen.KernelIdeal.Skeleton
import proofs.«171843_j46119358825081_1_alg».proof.Proof.RowEntropy
import proofs.«171843_j46119358825081_1_alg».proof.Proof.Keepdims
import Idealize.ShloMosaic.Lib.ValueLayout

noncomputable section

namespace Cert.KernelIdeal.Tile

open Idealize.ShloMosaic Idealize.ShloMosaic.ValueIdx Cert.KernelIdeal Cert.KernelIdeal.Facts₀
open Cert.MeanEntropy

variable [Cert.KernelIdeal.Facts]

/-- Every row divided by its clamped norm. -/
def rowsUnit (v : FVec Ideal S1024x512 .f32) : FVec Ideal S1024x512 .f32 :=
  divf v (broadcastTo S1024x512 (maximumf (sqrt (shapeCast S1024x1 (multiReduction .add [1] S1024 (mulf v v) 0x00000000#32
    reduces_S1024x512_S1024 (.inl rfl) rfl) shapeCasts_S1024_S1024x1)) (broadcast S1024x1 (Scalar.ofBits .f32 0x2B8CBCCC#32)))
    broadcasts_S1024x1_S1024x512)

/-- The products of the rows of `a` with the rows of `b`. -/
def products (a b : FVec Ideal S1024x512 .f32) : FVec Ideal S1024x1024 .f32 :=
  matmul dot_S1024x512_S1024x512_S1024x1024_1_1_0_0_n_n none (truncf .bf16 a bitsLt_bf16_f32) (truncf .bf16 b bitsLt_bf16_f32)
    (constant S1024x1024 .f32 0x00000000#32)

/-- `exp (y - rowmax y)`. -/
def shifted (y : FVec Ideal S1024x1024 .f32) : FVec Ideal S1024x1024 .f32 :=
  exp (subf y (broadcastTo S1024x1024 (shapeCast S1024x1 (multiReduction .maximumf [1] S1024 y 0xFF800000#32
    reduces_S1024x1024_S1024 (.inl rfl) rfl) shapeCasts_S1024_S1024x1) broadcasts_S1024x1_S1024x1024))

/-- Every row divided by its sum. -/
def normalised (e : FVec Ideal S1024x1024 .f32) : FVec Ideal S1024x1024 .f32 :=
  divf e (broadcastTo S1024x1024 (shapeCast S1024x1 (multiReduction .add [1] S1024 e 0x00000000#32
    reduces_S1024x1024_S1024 (.inl rfl) rfl) shapeCasts_S1024_S1024x1) broadcasts_S1024x1_S1024x1024)

/-- The two replacements that keep a probability strictly inside the unit interval. -/
def clamped (p : FVec Ideal S1024x1024 .f32) : FVec Ideal S1024x1024 .f32 :=
  select (cmpf .oge (select (cmpf .ole p (broadcast S1024x1024 (Scalar.ofBits .f32 0x00000000#32)))
      (broadcast S1024x1024 (Scalar.ofBits .f32 0x24E69595#32)) p) (broadcast S1024x1024 (Scalar.ofBits .f32 0x3F800000#32)))
    (broadcast S1024x1024 (Scalar.ofBits .f32 0x3F800000#32))
    (select (cmpf .ole p (broadcast S1024x1024 (Scalar.ofBits .f32 0x00000000#32)))
      (broadcast S1024x1024 (Scalar.ofBits .f32 0x24E69595#32)) p)

/-- The tile's contribution: the sum over its rows of `0 - ∑ q log q`. -/
def contribution (q : FVec Ideal S1024x1024 .f32) : FVec Ideal S1x1 .f32 :=
  shapeCast S1x1 (multiReduction .add [0] S1 (subf (broadcast S1024x1 (Scalar.ofBits .f32 0x00000000#32))
    (shapeCast S1024x1 (multiReduction .add [1] S1024 (mulf q (log q)) 0x00000000#32 reduces_S1024x1024_S1024 (.inl rfl) rfl)
      shapeCasts_S1024_S1024x1)) 0x00000000#32 reduces_S1024x1_S1 (.inl rfl) rfl) shapeCasts_S1_S1x1

/-- The clamped probabilities are the stages composed. -/
theorem pay3_eq (v3 v4 : Vec Ideal S1024x512 .f32) :
    Gen.k0_pay3 (F := Ideal) v3 v4 = clamped (normalised (shifted (products (rowsUnit v3) (rowsUnit v4)))) := rfl

/-- The new total is the old one plus the tile's contribution. -/
theorem pay1_eq (v40 : FVec Ideal S1024x1024 .f32) (v49 : Vec Ideal S1x1 .f32) :
    Gen.k0_pay1 (F := Ideal) v40 v49 = addf (shapeCast S1x1 v49 shapeCasts_S1x1_S1x1) (contribution v40) := rfl

/-! ## The stages read at an index -/

theorem sqrt_apply {s : Shape} (a : FVec Ideal s .f32) (i : s.Idx) : sqrt a i = Ideal.sqrt (a i) := rfl
theorem exp_apply {s : Shape} (a : FVec Ideal s .f32) (i : s.Idx) : exp a i = Ideal.exp (a i) := rfl
theorem log_apply {s : Shape} (a : FVec Ideal s .f32) (i : s.Idx) : log a i = Ideal.log (a i) := rfl

set_option backward.isDefEq.respectTransparency.types false in
/-- Entry `(r, k)` of the normalised rows: entry `k` of row `r` normalised. -/
theorem rowsUnit_apply (v : FVec Ideal S1024x512 .f32) (r : Fin 1024) (k : Fin 512) :
    rowsUnit v (ix2 r k) = unit (fun k' => v (ix2 r k')) k := by
  unfold rowsUnit unit
  rw [divf_apply, broadcastTo_a1_ab_apply, maximumf_apply, sqrt_apply, shapeCast_a_a1_apply, rowSum_apply]
  rfl

/-- The left operand's index at output `i` and contraction index `q`: row `i 0`, column `q`. -/
theorem lhs_row (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_col (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- The right operand's index: row `i 1`, column `q`. -/
theorem rhs_row (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_col (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- Entry `(p, j)` of the products: the inner product of row `p` of `a` and row `j` of `b`. -/
theorem products_apply (a b : FVec Ideal S1024x512 .f32) (p j : Fin 1024) :
    products a b (ix2 p j) = ∑ k : Fin 512, a (ix2 p k) * b (ix2 j k) := by
  unfold products
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p j) ((ValueIdx.contrEquiv1 dot_S1024x512_S1024x512_S1024x1024_1_1_0_0_n_n 512 rfl rfl).symm k) = ix2 p k := funext fun c => Fin.ext (by
    match c with
    | ⟨0, _⟩ => exact lhs_row _ _
    | ⟨1, _⟩ => exact (lhs_col _ _).trans hk)
  have er : dot_S1024x512_S1024x512_S1024x1024_1_1_0_0_n_n.rhsIdx (ix2 p j) ((ValueIdx.contrEquiv1 dot_S1024x512_S1024x512_S1024x1024_1_1_0_0_n_n 512 rfl rfl).symm k) = ix2 j k := funext fun c => Fin.ext (by
    match c with
    | ⟨0, _⟩ => exact rhs_row _ _
    | ⟨1, _⟩ => exact (rhs_col _ _).trans hk)
  rw [el, er]
  rfl

set_option backward.isDefEq.respectTransparency.types false in
/-- Entry `(p, j)` of the shifted exponentials: `exp (y p j - top (y p))`. -/
theorem shifted_apply (y : FVec Ideal S1024x1024 .f32) (p j : Fin 1024) :
    shifted y (ix2 p j) = Ideal.exp (y (ix2 p j) - top (fun j' => y (ix2 p j'))) := by
  unfold shifted top
  rw [exp_apply, subf_apply, broadcastTo_a1_ab_apply, shapeCast_a_a1_apply, rowMax_apply]

set_option backward.isDefEq.respectTransparency.types false in
/-- Entry `(p, j)` of the normalised rows: the entry over its row's sum. -/
theorem normalised_apply (e : FVec Ideal S1024x1024 .f32) (p j : Fin 1024) :
    normalised e (ix2 p j) = Ideal.div (e (ix2 p j)) (∑ j' : Fin 1024, e (ix2 p j')) := by
  unfold normalised
  rw [divf_apply, broadcastTo_a1_ab_apply, shapeCast_a_a1_apply, rowSum_apply]

/-- The clamp acts entry by entry. -/
theorem clamped_apply (p : FVec Ideal S1024x1024 .f32) (i : S1024x1024.Idx) : clamped p i = clamp (p i) := rfl

/-- Entry `(p, j)` of the clamped probabilities of a tile: the clamped probability `j` of the tile's row `p`. -/
theorem pay3_apply (v3 v4 : Vec Ideal S1024x512 .f32) (p j : Fin 1024) :
    Gen.k0_pay3 (F := Ideal) v3 v4 (ix2 p j) = prob (fun k => v3 (ix2 p k)) (fun j' k => v4 (ix2 j' k)) j := by
  rw [pay3_eq, clamped_apply, normalised_apply]
  unfold prob soft logit
  simp only [shifted_apply, products_apply, rowsUnit_apply]

set_option backward.isDefEq.respectTransparency.types false in
/-- The tile's contribution is the sum over its rows of minus the row's `∑ q log q`. -/
theorem contribution_apply (q : FVec Ideal S1024x1024 .f32) (u w : Fin 1) :
    contribution q (ix2 u w) = ∑ p : Fin 1024, -(∑ j : Fin 1024, q (ix2 p j) * Ideal.log (q (ix2 p j))) := by
  unfold contribution
  rw [shapeCast_a_1a_apply, colSum_apply]
  refine Finset.sum_congr rfl fun p _ => ?_
  rw [subf_apply, shapeCast_a_a1_apply, rowSum_apply]
  show zero - _ = _
  rw [zero_eq, zero_sub]
  rfl

/-- The new total, at its one index: the old total there plus the tile's contribution. -/
theorem pay1_apply (v40 : FVec Ideal S1024x1024 .f32) (v49 : Vec Ideal S1x1 .f32) (u w : Fin 1) :
    Gen.k0_pay1 (F := Ideal) v40 v49 (ix2 u w)
      = v49 (ix2 u w) + ∑ p : Fin 1024, -(∑ j : Fin 1024, v40 (ix2 p j) * Ideal.log (v40 (ix2 p j))) := by
  rw [pay1_eq, addf_apply, contribution_apply, shapeCast_self]

end Cert.KernelIdeal.Tile

end
-- ==== Proof.KernelTotal.lean ====
/-
  The kernel's results at the extended reals.

  Tile `t` contributes the sum of the entropies of rows `1024 t` to `1024 t + 1023` of `x` against `m`. The total
  starts at zero plus tile 0's contribution and gains tile `n + 1`'s at point `n + 1`, so after point `n` it is zero
  plus the sum of the first `n + 1` contributions (induction on the point); after the last point that is zero plus the
  sum over all 65536 rows, regrouped by tiles. The first two results are this total over the row count.
-/
import proofs.«171843_j46119358825081_1_alg».proof.Proof.BodyLeaves
import proofs.«171843_j46119358825081_1_alg».proof.Proof.WrittenBack
import proofs.«171843_j46119358825081_1_alg».proof.Proof.TilePayload

noncomputable section

open Idealize.ShloMosaic Idealize.ShloMosaic.TcCoe Idealize.SL.Sem Idealize.ShloMosaic.ValueIdx
open Idealize.ShloMosaic.Pipeline (Dat)

namespace Cert.KernelIdeal.Mean

open Cert.KernelIdeal Cert.KernelIdeal.Gen Cert.KernelIdeal.Leaves Cert.KernelIdeal.Written Cert.MeanEntropy

variable (m : (ℓ : Loc nD τ sig) → Buf (Elt Ideal) ℓ) (ρ : Dev nD → PrngReg)

/-- Row `r` of the first argument, row `j` of the second, on core `c`. -/
abbrev xrow (c : Dev nD) (r : Fin 65536) : Fin 512 → EReal := fun k => m ((c : Thread nD τ).loc main_arg0) (ix2 r k)
abbrev mrow (c : Dev nD) (j : Fin 1024) : Fin 512 → EReal := fun k => m ((c : Thread nD τ).loc main_arg1) (ix2 j k)

/-- The contribution of tile `t`: the entropies of its 1024 rows, summed (nothing past the grid). -/
def tile (c : Dev nD) (t : ℕ) : EReal :=
  if h : t < 64 then
    ∑ p : Fin 1024, rowEntropy (xrow m c ⟨1024 * t + p.val, by have := p.isLt; omega⟩) (fun j => mrow m c j)
  else 0

/-- One run of the body's arithmetic on blocks whose entries are known: the total gains the sum of the rows' entropies. -/
theorem step_blocks (x0 x1 : Vec Ideal S1024x512 .f32) (acc : Vec Ideal S1x1 .f32)
    (Xr : Fin 1024 → Fin 512 → EReal) (Mm : Fin 1024 → Fin 512 → EReal)
    (hx : ∀ p k, x0 (ix2 p k) = Xr p k) (hm : ∀ j k, x1 (ix2 j k) = Mm j k) (u w : Fin 1) :
    k0_pay1 (F := Ideal) (k0_pay3 x0 x1) acc (ix2 u w) = acc (ix2 u w) + ∑ p : Fin 1024, rowEntropy (Xr p) Mm := by
  rw [Tile.pay1_apply]
  refine congrArg (acc (ix2 u w) + ·) (Finset.sum_congr rfl fun p _ => ?_)
  unfold rowEntropy
  refine congrArg Neg.neg (Finset.sum_congr rfl fun j _ => ?_)
  rw [Tile.pay3_apply, show (fun k => x0 (ix2 p k)) = Xr p from funext (hx p),
    show (fun j' k => x1 (ix2 j' k)) = Mm from funext fun j' => funext (hm j')]

/-- At grid point `t` the total gains tile `t`'s contribution. -/
theorem step_at (c : Dev nD) (t : Fin cfg0.N) (acc : Vec Ideal S1x1 .f32) (u w : Fin 1) :
    k0_pay1 (F := Ideal) (k0_pay3 (iblk m c 0 t) (iblk m c 1 t)) acc (ix2 u w) = acc (ix2 u w) + tile m c t.val := by
  have ht : t.val < 64 := lt_of_lt_of_eq t.isLt N_0
  unfold tile
  rw [dif_pos ht]
  exact step_blocks (iblk m c 0 t) (iblk m c 1 t) acc
    (fun p => xrow m c ⟨1024 * t.val + p.val, by have := p.isLt; omega⟩) (fun j => mrow m c j)
    (fun p k => blk_x m c t p k _) (fun j k => blk_m m c t j k) u w

/-- After point `n` the total is zero plus the contributions of tiles `0` to `n`. -/
theorem outsAt_eq (c : Dev nD) : ∀ (n : ℕ) (h : n < cfg0.N) (u w : Fin 1),
    outsAt0 m c n h (ix2 u w) = zero + ∑ t ∈ Finset.range (n + 1), tile m c t
  | 0, h, u, w => by
    have e := (outsAt0_A m c ⟨0, h⟩ rfl).trans (out_first ..)
    refine (congrFun e (ix2 u w)).trans ?_
    refine (step_at m c ⟨0, h⟩ _ u w).trans ?_
    rw [Finset.sum_range_one]
    rfl
  | n + 1, h, u, w => by
    have hN : cfg0.N = 64 := N_0
    have hB : ¬(⟨n + 1, h⟩ : Fin cfg0.N).val % 64 = 0 := by dsimp only; omega
    have e := (outsAt0_B m c ⟨n + 1, h⟩ hB).trans (out_later ..)
    refine (congrFun e (ix2 u w)).trans ?_
    refine (step_at m c ⟨n + 1, h⟩ _ u w).trans ?_
    show outsAt0 m c n _ (ix2 u w) + tile m c (n + 1) = _
    rw [outsAt_eq c n _ u w, Finset.sum_range_succ _ (n + 1), add_assoc]

/-- The total after the last point: zero plus the sum of the entropies of all 65536 rows. -/
theorem total_apply (c : Dev nD) (u w : Fin 1) :
    total m c (ix2 u w) = zero + ∑ r : Fin 65536, rowEntropy (xrow m c r) (fun j => mrow m c j) := by
  refine (outsAt_eq m c 63 _ u w).trans ?_
  show zero + ∑ t ∈ Finset.range 64, tile m c t = _
  refine congrArg (zero + ·) ?_
  rw [sum_tiles, Finset.sum_range (fun t => tile m c t)]
  refine Finset.sum_congr rfl fun t _ => ?_
  unfold tile
  rw [dif_pos t.isLt]

/-- The first two results: the mean entropy of the rows of the first argument against the second. -/
theorem mean_value (c : Dev nD) :
    Host.divf (F := Ideal) (shapeCast S_ (total m c) Facts₀.shapeCasts_S1x1_S_) (constant (F := Ideal) S_ .f32 0x47800000#32)
      = fun _ => meanEntropy (xrow m c) (fun j => mrow m c j) := by
  funext i
  show Ideal.div (total m c (Shape.reshapeEquiv _ i)) count = _
  obtain ⟨u, w, hj⟩ : ∃ (u w : Fin 1), (Shape.reshapeEquiv Facts₀.shapeCasts_S1x1_S_ i : S1x1.Idx) = ix2 u w := ⟨_, _, eq_ix2 _⟩
  rw [hj, total_apply]
  rfl

/-- The kernel's run, read at the extended reals. -/
theorem run : θ_run defs (onTc (τ := τ) (main (F := Ideal))) ⟨m, fun _ => 0, ρ⟩ fun r => ∀ c : Dev nD,
      r.2.mem ((c : Thread nD τ).loc main_v2) = (fun _ => meanEntropy (xrow m c) (fun j => mrow m c j))
      ∧ r.2.mem ((c : Thread nD τ).loc main_cst_0) = constant (F := Ideal) S_ .f32 0x00000000#32
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (mean_value m c), (h c).2⟩) (Written.run m ρ)

end Cert.KernelIdeal.Mean

end
-- ==== Proof.RefRows.lean ====
/-
  The reference program read row by row at the extended reals.

  The reference normalises the rows of `x` and of `m`, multiplies them, takes each row's softmax (the maximum of a
  row found by a fold from `-∞` and then, once more, compared with `-∞`, which changes nothing), clamps it, and
  averages over all rows minus each row's `∑ q log q`. Stage by stage its values are the functions of `RowEntropy`
  of the rows of the two arguments; its result is `meanEntropy`.
-/
import proofs.«171843_j46119358825081_1_alg».proof.Proof.Gen.ReferenceIdeal.Read
import proofs.«171843_j46119358825081_1_alg».proof.Proof.RowEntropy
import proofs.«171843_j46119358825081_1_alg».proof.Proof.Keepdims

noncomputable section

namespace Cert.ReferenceIdeal.Rows

open Idealize.ShloMosaic Idealize.ShloMosaic.ValueIdx Cert.ReferenceIdeal Cert.ReferenceIdeal.Read
open Cert.MeanEntropy

variable (x0 : (⟨S65536x512, .f32⟩ : BufTy).Contents (Elt Ideal)) (x1 : (⟨S1024x512, .f32⟩ : BufTy).Contents (Elt Ideal))

/-- Row `r` of the first argument, row `j` of the second. -/
abbrev xrow (r : Fin 65536) : Fin 512 → EReal := fun k => x0 (ix2 r k)
abbrev mrow (j : Fin 1024) : Fin 512 → EReal := fun k => x1 (ix2 j k)

/-! ## The composed index maps at coordinates -/

theorem ix_sq_x (r : Fin 65536) (k k' : Fin 512) : idx_main_v1 (idx_main_v2 (idx_main_v6 (ix2 r k))) k' = ix2 r k' :=
  funext fun a => Fin.ext (by match a with | ⟨0, _⟩ => rfl | ⟨1, _⟩ => rfl)
theorem ix_sq_m (j : Fin 1024) (k k' : Fin 512) : idx_main_v9 (idx_main_v10 (idx_main_v14 (ix2 j k))) k' = ix2 j k' :=
  funext fun a => Fin.ext (by match a with | ⟨0, _⟩ => rfl | ⟨1, _⟩ => rfl)
theorem ix_l (r : Fin 65536) (j : Fin 1024) (k : Fin 512) : lidx_main_v16 (ix2 r j) k = ix2 r k :=
  funext fun a => Fin.ext (by match a with | ⟨0, _⟩ => rfl | ⟨1, _⟩ => rfl)
theorem ix_r (r : Fin 65536) (j : Fin 1024) (k : Fin 512) : ridx_main_v16 (ix2 r j) k = ix2 j k :=
  funext fun a => Fin.ext (by match a with | ⟨0, _⟩ => rfl | ⟨1, _⟩ => rfl)

/-! ## Stage by stage -/

/-- The normalised first argument at `(r, k)`. -/
theorem xn_apply (r : Fin 65536) (k : Fin 512) : val_main_v7 (F := Ideal) x0 (ix2 r k) = unit (xrow x0 r) k := by
  rw [val_main_v7_apply, val_main_v6_apply, val_main_v5_apply, val_main_v3_apply, val_main_v2_apply, val_main_v1_apply,
    val_main_v4_apply, val_main_cst_0_apply, val_main_cst_apply]
  simp only [val_main_v0_apply, ix_sq_x]
  unfold unit
  rw [Ideal.ofBits_def, Ideal.ofBits_zero_f32, zero_add]
  rfl

/-- The normalised second argument at `(j, k)`. -/
theorem mn_apply (j : Fin 1024) (k : Fin 512) : val_main_v15 (F := Ideal) x1 (ix2 j k) = unit (mrow x1 j) k := by
  rw [val_main_v15_apply, val_main_v14_apply, val_main_v13_apply, val_main_v11_apply, val_main_v10_apply, val_main_v9_apply,
    val_main_v12_apply, val_main_cst_2_apply, val_main_cst_1_apply]
  simp only [val_main_v8_apply, ix_sq_m]
  unfold unit
  rw [Ideal.ofBits_def, Ideal.ofBits_zero_f32, zero_add]
  rfl

/-- The logits at `(r, j)`. -/
theorem logit_apply (r : Fin 65536) (j : Fin 1024) :
    val_main_v16 (F := Ideal) x0 x1 (ix2 r j) = logit (xrow x0 r) (fun j' => mrow x1 j') j := by
  rw [val_main_v16_apply]
  unfold logit
  simp only [ix_l, ix_r, xn_apply, mn_apply]

/-- The logits of row `r`. -/
abbrev logits (r : Fin 65536) : Fin 1024 → EReal := logit (xrow x0 r) (fun j' => mrow x1 j')

theorem ix_rowmax (r : Fin 65536) (j : Fin 1024) : idx_main_v20 (idx_main_v21 (ix2 r j)) = ix1 r :=
  funext fun a => Fin.ext (by match a with | ⟨0, _⟩ => rfl)
theorem ix_rowsum (r : Fin 65536) (j : Fin 1024) : idx_main_v25 (idx_main_v26 (ix2 r j)) = ix1 r :=
  funext fun a => Fin.ext (by match a with | ⟨0, _⟩ => rfl)
theorem ix_row24 (r : Fin 65536) (j : Fin 1024) : idx_main_v24 (ix1 r) j = ix2 r j :=
  funext fun a => Fin.ext (by match a with | ⟨0, _⟩ => rfl | ⟨1, _⟩ => rfl)
theorem ix_row36 (r : Fin 65536) (j : Fin 1024) : idx_main_v36 (ix1 r) j = ix2 r j :=
  funext fun a => Fin.ext (by match a with | ⟨0, _⟩ => rfl | ⟨1, _⟩ => rfl)

/-- The row maximum the softmax subtracts: the fold from `-∞`, compared once more with `-∞`. -/
theorem rowmax_apply (r : Fin 65536) : val_main_v19 (F := Ideal) x0 x1 (ix1 r) = top (logits x0 x1 r) := by
  rw [val_main_v19_apply, val_main_v18_apply, val_main_cst_4_apply]
  unfold val_main_v17
  rw [Host.reduce_eq_fold_single FloatOps.maximumf _ _ _ (by decide : S65536x1024.Reduces [1] S65536) _ (ix1 r)]
  have hf : (val_main_v16 (F := Ideal) x0 x1 ∘ (by decide : S65536x1024.Reduces [1] S65536).lift (ix1 r)) = logits x0 x1 r :=
    funext fun k => (congrArg (val_main_v16 (F := Ideal) x0 x1) (lift_row _ r k)).trans (logit_apply x0 x1 r _)
  rw [hf]
  exact max_ninf_top (logits x0 x1 r)

/-- The shifted exponentials at `(r, j)`. -/
theorem shifted_apply (r : Fin 65536) (j : Fin 1024) :
    val_main_v23 (F := Ideal) x0 x1 (ix2 r j) = Ideal.exp (logits x0 x1 r j - top (logits x0 x1 r)) := by
  rw [val_main_v23_apply, val_main_v22_apply, val_main_v21_apply, val_main_v20_apply, ix_rowmax, rowmax_apply, logit_apply]
  rfl

/-- The softmax at `(r, j)`. -/
theorem soft_apply (r : Fin 65536) (j : Fin 1024) :
    val_main_v27 (F := Ideal) x0 x1 (ix2 r j) = soft (logits x0 x1 r) j := by
  rw [val_main_v27_apply, val_main_v26_apply, val_main_v25_apply, ix_rowsum, val_main_v24_apply, val_main_cst_5_apply]
  simp only [ix_row24, shifted_apply]
  unfold soft
  rw [Ideal.ofBits_def, Ideal.ofBits_zero_f32, zero_add]
  rfl

/-- The clamped probabilities at `(r, j)`. -/
theorem prob_apply (r : Fin 65536) (j : Fin 1024) :
    val_main_v33 (F := Ideal) x0 x1 (ix2 r j) = prob (xrow x0 r) (fun j' => mrow x1 j') j := by
  rw [val_main_v33_apply, val_main_v32_apply, val_main_v30_apply, val_main_v29_apply, val_main_call1_v1_apply,
    val_main_call1_v0_apply, val_main_cst_9_apply, val_main_call0_v1_apply, val_main_call0_v0_apply, val_main_cst_7_apply,
    val_main_v31_apply, val_main_cst_8_apply, val_main_v28_apply, val_main_cst_6_apply, soft_apply]
  rfl

/-- Minus the row's `∑ q log q`. -/
theorem entropy_apply (r : Fin 65536) :
    val_main_v37 (F := Ideal) x0 x1 (ix1 r) = rowEntropy (xrow x0 r) (fun j' => mrow x1 j') := by
  rw [val_main_v37_apply, val_main_v36_apply, val_main_cst_10_apply]
  simp only [ix_row36, val_main_v35_apply, val_main_v34_apply, prob_apply]
  unfold rowEntropy
  rw [Ideal.ofBits_def, Ideal.ofBits_zero_f32, zero_add]
  rfl

/-- A vector's index is its one coordinate. -/
def rowEquiv : S65536.Idx ≃ Fin 65536 where
  toFun j := j 0
  invFun r := ix1 r
  left_inv j := (eq_ix1 j).symm
  right_inv _ := rfl

/-- The reference's result: the mean of the rows' entropies. -/
theorem mean_apply (i : S_.Idx) :
    val_main_v39 (F := Ideal) x0 x1 i = meanEntropy (fun r => xrow x0 r) (fun j' => mrow x1 j') := by
  rw [val_main_v39_apply, val_main_v38_apply, val_main_cst_12_apply, val_main_cst_11_apply]
  unfold meanEntropy
  show Ideal.div (zero + ∑ j : S65536.Idx, val_main_v37 (F := Ideal) x0 x1 j) count = _
  refine congrArg (fun s => Ideal.div (zero + s) count) ?_
  refine (Equiv.sum_comp rowEquiv.symm (val_main_v37 (F := Ideal) x0 x1)).symm.trans ?_
  exact Finset.sum_congr rfl fun r _ => entropy_apply x0 x1 r

end Cert.ReferenceIdeal.Rows

end
-- ==== Proof.lean ====
/-
  The mean clustering entropy: a tiled kernel against its whole-array reference.

  Both programs normalise the rows of `x` (65536 rows of 512 numbers) and of `m` (1024 rows), take the cosines of every
  row of `x` with every row of `m`, turn each row of cosines into probabilities by a softmax, push each probability
  strictly inside the unit interval, and return the mean over the rows of `x` of the entropy `- ∑ q log q` of the
  row's probabilities (twice) and the constant zero. The kernel walks `x` in 64 tiles of 1024 rows, keeps `m` whole,
  and adds each tile's sum of entropies to a one-entry total which the host divides by 65536 at the end.

  At the extended reals the two agree exactly. Row by row both compute the same function of one row of `x` and of `m`
  (`RowEntropy`): a change of float format is the identity, the kernel's matrix product into a zero accumulator and
  the reference's product are the same sums, the reference's second comparison of a row's maximum with `-∞` changes
  nothing, and `0 - s` is `-s`. The kernel's total is zero plus the tiles' sums in grid order; regrouping the 65536 rows
  into 64 tiles of 1024 uses only that addition of extended reals is commutative and associative, so the finiteness of
  the inputs is never used.

  The three frames are the generated ones (the reference's is its generated run with the results dropped); the ideal
  pass rewrote nothing, so the kernel's idealisation is the kernel's own text.
-/
import proofs.«171843_j46119358825081_1_alg».proof.Defs
import proofs.«171843_j46119358825081_1_alg».proof.Proof.Gen.Kernel
import proofs.«171843_j46119358825081_1_alg».proof.Proof.Gen.Kernel.Frame
import proofs.«171843_j46119358825081_1_alg».proof.Proof.Gen.KernelIdeal
import proofs.«171843_j46119358825081_1_alg».proof.Proof.Gen.KernelIdeal.Frame
import proofs.«171843_j46119358825081_1_alg».proof.Proof.Gen.ReferenceIdeal
import proofs.«171843_j46119358825081_1_alg».proof.Proof.Gen.Pre_finite_inputs
import proofs.«171843_j46119358825081_1_alg».proof.Proof.Gen.ReferenceIdeal.Run
import proofs.«171843_j46119358825081_1_alg».proof.Proof.Gen.ReferenceIdeal.Read
import proofs.«171843_j46119358825081_1_alg».proof.Proof.KernelTotal
import proofs.«171843_j46119358825081_1_alg».proof.Proof.RefRows
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.2.1, (h c).2.2.2.2⟩)
    (Cert.ReferenceIdeal.Value.run (F := Ideal) m ρ)

theorem preserves : Cert.preserves_Kernel_KernelIdeal := trivial

/-- Both programs end with the mean entropy of the rows of the first argument against the second (twice) and the
    constant zero: the kernel by its tiles' running total, the reference row by row, of arguments that agree. -/
theorem algebraic : Cert.algebraic_KernelIdeal_ReferenceIdeal := by
  intro m ρ m' ρ' _ hagree
  refine ⟨fun c => (fun _ => Cert.MeanEntropy.meanEntropy (Cert.KernelIdeal.Mean.xrow m c) (fun j => Cert.KernelIdeal.Mean.mrow m c j)),
    fun c => (fun _ => Cert.MeanEntropy.meanEntropy (Cert.KernelIdeal.Mean.xrow m c) (fun j => Cert.KernelIdeal.Mean.mrow m c j)),
    fun _ => constant (F := Ideal) Cert.KernelIdeal.S_ .f32 0x00000000#32, ?_, ?_⟩
  · exact (θ_run Cert.KernelIdeal.defs _ _).mono (fun _ h c => ⟨(h c).1, (h c).1, (h c).2.1, (h c).2.2.1, (h c).2.2.2⟩)
      (Cert.KernelIdeal.Mean.run m ρ)
  · refine (θ_run Cert.ReferenceIdeal.defs _ _).mono (fun _ h c => ?_) (Cert.ReferenceIdeal.Value.run (F := Ideal) m' ρ')
    have e : Cert.ReferenceIdeal.Value.res_main_v39 m' c
        = fun _ => Cert.MeanEntropy.meanEntropy (Cert.KernelIdeal.Mean.xrow m c) (fun j => Cert.KernelIdeal.Mean.mrow m c j) := by
      rw [Cert.ReferenceIdeal.Read.val_main_v39_eq]
      funext i
      rw [Cert.ReferenceIdeal.Rows.mean_apply, (hagree c).1, (hagree c).2]
    exact ⟨(h c).1.trans e, (h c).2.1.trans e, (h c).2.2.1, (h c).2.2.2.1, (h c).2.2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
